-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x320000 : Shape := ⟨2, ![16, 320000]⟩
abbrev S1025x2048 : Shape := ⟨2, ![1025, 2048]⟩
abbrev S_ : Shape := ⟨0, ![]⟩

class Facts : Prop where
  bcast_S_S16x320000 : S_.BroadcastsInDim S16x320000 (![] : Fin 0 → Fin S16x320000.rank)
  reducesTo_S16x320000_S_d0_1 : S16x320000.ReducesTo [0, 1] S_
  h_S_ : 0 < S_.numel
  bcast_S_S1025x2048 : S_.BroadcastsInDim S1025x2048 (![] : Fin 0 → Fin S1025x2048.rank)
  reducesTo_S1025x2048_S_d0_1 : S1025x2048.ReducesTo [0, 1] S_

variable [Facts]

def fn {F : FTy → Type} [FloatOps F] (main_arg0 : FVec F S16x320000 .f32) (main_arg1 : FVec F S1025x2048 .f32) (main_arg2 : FVec F S1025x2048 .f32) : IVec S_ 1 :=
  let main_v0 : FVec F S16x320000 .f32 := Host.absf main_arg0
  let main_cst : FVec F S_ .f32 := constant S_ .f32 0x7F800000#32
  let main_v1 : FVec F S16x320000 .f32 := broadcastInDim S16x320000 ![] bcast_S_S16x320000 main_cst
  let main_v2 : IVec S16x320000 1 := cmpf .olt main_v0 main_v1
  let main_c : IVec S_ 1 := constantI S_ 1 1#1
  let main_v3 : IVec S_ 1 := (fun x v => Host.reduce IntOp.andi x v reducesTo_S16x320000_S_d0_1 h_S_) main_v2 main_c
  let main_v4 : FVec F S1025x2048 .f32 := Host.absf main_arg1
  let main_cst_0 : FVec F S_ .f32 := constant S_ .f32 0x7F800000#32
  let main_v5 : FVec F S1025x2048 .f32 := broadcastInDim S1025x2048 ![] bcast_S_S1025x2048 main_cst_0
  let main_v6 : IVec S1025x2048 1 := cmpf .olt main_v4 main_v5
  let main_c_1 : IVec S_ 1 := constantI S_ 1 1#1
  let main_v7 : IVec S_ 1 := (fun x v => Host.reduce IntOp.andi x v reducesTo_S1025x2048_S_d0_1 h_S_) main_v6 main_c_1
  let main_v8 : IVec S_ 1 := andi main_v3 main_v7
  let main_v9 : FVec F S1025x2048 .f32 := Host.absf main_arg2
  let main_cst_2 : FVec F S_ .f32 := constant S_ .f32 0x7F800000#32
  let main_v10 : FVec F S1025x2048 .f32 := broadcastInDim S1025x2048 ![] bcast_S_S1025x2048 main_cst_2
  let main_v11 : IVec S1025x2048 1 := cmpf .olt main_v9 main_v10
  let main_c_3 : IVec S_ 1 := constantI S_ 1 1#1
  let main_v12 : IVec S_ 1 := (fun x v => Host.reduce IntOp.andi x v reducesTo_S1025x2048_S_d0_1 h_S_) main_v11 main_c_3
  let main_v13 : IVec S_ 1 := andi main_v8 main_v12
  main_v13
-- ==== Kernel.lean ====
abbrev S16x320000 : Shape := ⟨2, ![16, 320000]⟩
abbrev S1025x2048 : Shape := ⟨2, ![1025, 2048]⟩
abbrev S_ : Shape := ⟨0, ![]⟩
abbrev S16x1 : Shape := ⟨2, ![16, 1]⟩
abbrev S16x1024 : Shape := ⟨2, ![16, 1024]⟩
abbrev S16x321024 : Shape := ⟨2, ![16, 321024]⟩
abbrev S16x322048 : Shape := ⟨2, ![16, 322048]⟩
abbrev S626 : Shape := ⟨1, ![626]⟩
abbrev S626x1 : Shape := ⟨2, ![626, 1]⟩
abbrev S2048 : Shape := ⟨1, ![2048]⟩
abbrev S1x2048 : Shape := ⟨2, ![1, 2048]⟩
abbrev S626x2048 : Shape := ⟨2, ![626, 2048]⟩
abbrev S626x2048x1 : Shape := ⟨3, ![626, 2048, 1]⟩
abbrev S16x626x2048 : Shape := ⟨3, ![16, 626, 2048]⟩
abbrev S10016x2048 : Shape := ⟨2, ![10016, 2048]⟩
abbrev S10240x2048 : Shape := ⟨2, ![10240, 2048]⟩
abbrev S2048x1025 : Shape := ⟨2, ![2048, 1025]⟩
abbrev S2048x2050 : Shape := ⟨2, ![2048, 2050]⟩
abbrev S2048x2176 : Shape := ⟨2, ![2048, 2176]⟩
abbrev S10240x2176 : Shape := ⟨2, ![10240, 2176]⟩
abbrev S512x2048 : Shape := ⟨2, ![512, 2048]⟩
abbrev S512x2176 : Shape := ⟨2, ![512, 2176]⟩
abbrev S10016x2050 : Shape := ⟨2, ![10016, 2050]⟩
abbrev S10016x1025 : Shape := ⟨2, ![10016, 1025]⟩
abbrev S16x626x1025 : Shape := ⟨3, ![16, 626, 1025]⟩
abbrev S16x1x626x1025 : Shape := ⟨4, ![16, 1, 626, 1025]⟩

abbrev nBuf : Space → Nat
  | .hbm => 51
  | .vmem => 5
  | .smem => 0
  | _ => 0

abbrev bufTy : (tb : Table) → Fin (tcTables nBuf tb) → BufTy
  | .hbm, ⟨0, _⟩ => ⟨S16x320000, .f32⟩
  | .hbm, ⟨1, _⟩ => ⟨S1025x2048, .f32⟩
  | .hbm, ⟨2, _⟩ => ⟨S1025x2048, .f32⟩
  | .hbm, ⟨3, _⟩ => ⟨S_, .i32⟩
  | .hbm, ⟨4, _⟩ => ⟨S16x1, .f32⟩
  | .hbm, ⟨5, _⟩ => ⟨S16x1024, .f32⟩
  | .hbm, ⟨6, _⟩ => ⟨S16x1024, .f32⟩
  | .hbm, ⟨7, _⟩ => ⟨S16x321024, .f32⟩
  | .hbm, ⟨8, _⟩ => ⟨S16x1, .f32⟩
  | .hbm, ⟨9, _⟩ => ⟨S16x1024, .f32⟩
  | .hbm, ⟨10, _⟩ => ⟨S16x1024, .f32⟩
  | .hbm, ⟨11, _⟩ => ⟨S16x322048, .f32⟩
  | .hbm, ⟨12, _⟩ => ⟨S626, .i32⟩
  | .hbm, ⟨13, _⟩ => ⟨S626x1, .i32⟩
  | .hbm, ⟨14, _⟩ => ⟨S_, .i32⟩
  | .hbm, ⟨15, _⟩ => ⟨S626x1, .i32⟩
  | .hbm, ⟨16, _⟩ => ⟨S626x1, .i32⟩
  | .hbm, ⟨17, _⟩ => ⟨S2048, .i32⟩
  | .hbm, ⟨18, _⟩ => ⟨S1x2048, .i32⟩
  | .hbm, ⟨19, _⟩ => ⟨S626x2048, .i32⟩
  | .hbm, ⟨20, _⟩ => ⟨S626x2048, .i32⟩
  | .hbm, ⟨21, _⟩ => ⟨S626x2048, .i32⟩
  | .hbm, ⟨22, _⟩ => ⟨S_, .i32⟩
  | .hbm, ⟨23, _⟩ => ⟨S626x2048, .i32⟩
  | .hbm, ⟨24, _⟩ => ⟨S626x2048, .i1⟩
  | .hbm, ⟨25, _⟩ => ⟨S_, .i32⟩
  | .hbm, ⟨26, _⟩ => ⟨S626x2048, .i32⟩
  | .hbm, ⟨27, _⟩ => ⟨S626x2048, .i32⟩
  | .hbm, ⟨28, _⟩ => ⟨S626x2048, .i32⟩
  | .hbm, ⟨29, _⟩ => ⟨S626x2048x1, .i32⟩
  | .hbm, ⟨30, _⟩ => ⟨S16x626x2048, .f32⟩
  | .hbm, ⟨31, _⟩ => ⟨S10016x2048, .f32⟩
  | .hbm, ⟨32, _⟩ => ⟨S10016x2048, .bf16⟩
  | .hbm, ⟨33, _⟩ => ⟨S_, .i32⟩
  | .hbm, ⟨34, _⟩ => ⟨S_, .bf16⟩
  | .hbm, ⟨35, _⟩ => ⟨S10240x2048, .bf16⟩
  | .hbm, ⟨36, _⟩ => ⟨S2048x1025, .f32⟩
  | .hbm, ⟨37, _⟩ => ⟨S2048x1025, .f32⟩
  | .hbm, ⟨38, _⟩ => ⟨S2048x2050, .f32⟩
  | .hbm, ⟨39, _⟩ => ⟨S_, .i32⟩
  | .hbm, ⟨40, _⟩ => ⟨S_, .f32⟩
  | .hbm, ⟨41, _⟩ => ⟨S2048x2176, .f32⟩
  | .hbm, ⟨42, _⟩ => ⟨S2048x2176, .bf16⟩
  | .hbm, ⟨43, _⟩ => ⟨S10240x2176, .f32⟩
  | .hbm, ⟨44, _⟩ => ⟨S10016x2050, .f32⟩
  | .hbm, ⟨45, _⟩ => ⟨S10016x1025, .f32⟩
  | .hbm, ⟨46, _⟩ => ⟨S16x626x1025, .f32⟩
  | .hbm, ⟨47, _⟩ => ⟨S10016x1025, .f32⟩
  | .hbm, ⟨48, _⟩ => ⟨S16x626x1025, .f32⟩
  | .hbm, ⟨49, _⟩ => ⟨S16x1x626x1025, .f32⟩
  | .hbm, ⟨50, _⟩ => ⟨S16x1x626x1025, .f32⟩
  | .local _ .vmem, ⟨0, _⟩ => ⟨S512x2048, .bf16⟩
  | .local _ .vmem, ⟨1, _⟩ => ⟨S512x2048, .bf16⟩
  | .local _ .vmem, ⟨2, _⟩ => ⟨S2048x2176, .bf16⟩
  | .local _ .vmem, ⟨3, _⟩ => ⟨S512x2176, .f32⟩
  | .local _ .vmem, ⟨4, _⟩ => ⟨S512x2176, .f32⟩
  | _, _ => ⟨S16x320000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_call1_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_call2_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S16x320000_S16x1_0_0 : S16x320000.Slices ![0, 0] S16x1
  slices_S16x320000_S16x1024_0_1 : S16x320000.Slices ![0, 1] S16x1024
  concatenates_S16x1024_S16x320000_S16x321024_d1 : Shape.Concatenates [S16x1024, S16x320000] S16x321024 1
  slices_S16x321024_S16x1_0_321023 : S16x321024.Slices ![0, 321023] S16x1
  slices_S16x321024_S16x1024_0_319999 : S16x321024.Slices ![0, 319999] S16x1024
  concatenates_S16x321024_S16x1024_S16x322048_d1 : Shape.Concatenates [S16x321024, S16x1024] S16x322048 1
  bcast_S626_S626x1_0 : S626.BroadcastsInDim S626x1 (![0] : Fin 1 → Fin S626x1.rank)
  bcast_S_S626x1 : S_.BroadcastsInDim S626x1 (![] : Fin 0 → Fin S626x1.rank)
  bcast_S2048_S1x2048_1 : S2048.BroadcastsInDim S1x2048 (![1] : Fin 1 → Fin S1x2048.rank)
  bcast_S626x1_S626x2048_0_1 : S626x1.BroadcastsInDim S626x2048 (![0, 1] : Fin 2 → Fin S626x2048.rank)
  bcast_S1x2048_S626x2048_0_1 : S1x2048.BroadcastsInDim S626x2048 (![0, 1] : Fin 2 → Fin S626x2048.rank)
  bcast_S_S626x2048 : S_.BroadcastsInDim S626x2048 (![] : Fin 0 → Fin S626x2048.rank)
  bcast_S626x2048_S626x2048x1_0_1 : S626x2048.BroadcastsInDim S626x2048x1 (![0, 1] : Fin 2 → Fin S626x2048x1.rank)
  shapeCasts_S16x626x2048_S10016x2048 : S16x626x2048.ShapeCasts S10016x2048
  bitsLt_bf16_f32 : FTy.bits .bf16 < FTy.bits .f32
  pads_S10016x2048_S10240x2048_02240_000 : S10016x2048.Pads (![0, 0] : Fin 2 → Nat) ![224, 0] ![0, 0] S10240x2048
  h_S_ : 0 < S_.numel
  transposes_S1025x2048_S2048x1025_1_0 : S1025x2048.Transposes [1, 0] S2048x1025
  concatenates_S2048x1025_S2048x1025_S2048x2050_d1 : Shape.Concatenates [S2048x1025, S2048x1025] S2048x2050 1
  pads_S2048x2050_S2048x2176_000_01260 : S2048x2050.Pads (![0, 0] : Fin 2 → Nat) ![0, 126] ![0, 0] S2048x2176
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2176_S2048x2176_0_0 : ∀ a, (![0, 0] : Fin 2 → Nat) a + S2048x2176.size a ≤ S2048x2176.size a
  h_S2048x2176 : 0 < S2048x2176.numel
  shapeCasts_S2048x2176_S2048x2176 : S2048x2176.ShapeCasts S2048x2176
  inb_S512x2176_S512x2176_0_0 : ∀ a, (![0, 0] : Fin 2 → Nat) a + S512x2176.size a ≤ S512x2176.size a
  h_S512x2176 : 0 < S512x2176.numel
  slices_S10240x2176_S10016x2050_0_0 : S10240x2176.Slices ![0, 0] S10016x2050
  slices_S10016x2050_S10016x1025_0_0 : S10016x2050.Slices ![0, 0] S10016x1025
  shapeCasts_S10016x1025_S16x626x1025 : S10016x1025.ShapeCasts S16x626x1025
  slices_S10016x2050_S10016x1025_0_1025 : S10016x2050.Slices ![0, 1025] S10016x1025
  bcast_S16x626x1025_S16x1x626x1025_0_2_3 : S16x626x1025.BroadcastsInDim S16x1x626x1025 (![0, 2, 3] : Fin 3 → Fin S16x1x626x1025.rank)
  gather_S16x322048_S626x2048x1_S16x626x2048_0_1_n_n_1_2_161_wf : GatherDims.WF S16x322048 S626x2048x1 S16x626x2048 [0] [1] [] [1] [] 2 ![16, 1]
  dot_S512x2048_S2048x2176_S512x2176_1_0_0_1_n_n_wf : DotDims.WF S512x2048 S2048x2176 S512x2176 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S10240x2048.size a
  hwx0_0 : ∀ i : grid0.Coords, EltTy.bits .bf16 = 32 ∨ (Rect.block (s := S10240x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2176.size a ≤ S2048x2176.size a
  hwx0_1 : ∀ i : grid0.Coords, EltTy.bits .bf16 = 32 ∨ (Rect.block (s := S2048x2176) S2048x2176.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2176.size a ≤ S10240x2176.size a
  hwx0_2 : ∀ i : grid0.Coords, EltTy.bits .f32 = 32 ∨ (Rect.block (s := S10240x2176) S512x2176.size (cc0_transform_2 i) (hinb0_2 i)).WholeWords (EltTy.packing .f32)

variable [Facts₀]

def gather_S16x322048_S626x2048x1_S16x626x2048_0_1_n_n_1_2_161 : GatherDims S16x322048 S626x2048x1 S16x626x2048 where
  offsetDims := [0]
  collapsedSliceDims := [1]
  operandBatchingDims := []
  startIndicesBatchingDims := []
  startIndexMap := [1]
  indexVectorDim := 2
  sliceSizes := ![16, 1]
  wf := gather_S16x322048_S626x2048x1_S16x626x2048_0_1_n_n_1_2_161_wf
def dot_S512x2048_S2048x2176_S512x2176_1_0_0_1_n_n : DotDims S512x2048 S2048x2176 S512x2176 where
  lhsContracting := [1]
  rhsContracting := [0]
  lhsNonContracting := [0]
  rhsNonContracting := [1]
  lhsBatch := []
  rhsBatch := []
  wf := dot_S512x2048_S2048x2176_S512x2176_1_0_0_1_n_n_wf

abbrev win0_0 : Pipeline.Window sig grid0 :=
  Pipeline.Window.ofSpec (Memref.whole main_v19) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2048x2176.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S512x2176.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x320000 : Shape := ⟨2, ![16, 320000]⟩
abbrev S1025x2048 : Shape := ⟨2, ![1025, 2048]⟩
abbrev S_ : Shape := ⟨0, ![]⟩
abbrev S16x1 : Shape := ⟨2, ![16, 1]⟩
abbrev S16x1024 : Shape := ⟨2, ![16, 1024]⟩
abbrev S16x321024 : Shape := ⟨2, ![16, 321024]⟩
abbrev S16x322048 : Shape := ⟨2, ![16, 322048]⟩
abbrev S626 : Shape := ⟨1, ![626]⟩
abbrev S626x1 : Shape := ⟨2, ![626, 1]⟩
abbrev S2048 : Shape := ⟨1, ![2048]⟩
abbrev S1x2048 : Shape := ⟨2, ![1, 2048]⟩
abbrev S626x2048 : Shape := ⟨2, ![626, 2048]⟩
abbrev S626x2048x1 : Shape := ⟨3, ![626, 2048, 1]⟩
abbrev S16x626x2048 : Shape := ⟨3, ![16, 626, 2048]⟩
abbrev S16x626x1025 : Shape := ⟨3, ![16, 626, 1025]⟩
abbrev S16x1x626x1025 : Shape := ⟨4, ![16, 1, 626, 1025]⟩

abbrev nBuf : Space → Nat
  | .hbm => 35
  | .vmem => 0
  | .smem => 0
  | _ => 0

abbrev bufTy : (tb : Table) → Fin (tcTables nBuf tb) → BufTy
  | .hbm, ⟨0, _⟩ => ⟨S16x320000, .f32⟩
  | .hbm, ⟨1, _⟩ => ⟨S1025x2048, .f32⟩
  | .hbm, ⟨2, _⟩ => ⟨S1025x2048, .f32⟩
  | .hbm, ⟨3, _⟩ => ⟨S_, .i32⟩
  | .hbm, ⟨4, _⟩ => ⟨S16x1, .f32⟩
  | .hbm, ⟨5, _⟩ => ⟨S16x1024, .f32⟩
  | .hbm, ⟨6, _⟩ => ⟨S16x1024, .f32⟩
  | .hbm, ⟨7, _⟩ => ⟨S16x321024, .f32⟩
  | .hbm, ⟨8, _⟩ => ⟨S16x1, .f32⟩
  | .hbm, ⟨9, _⟩ => ⟨S16x1024, .f32⟩
  | .hbm, ⟨10, _⟩ => ⟨S16x1024, .f32⟩
  | .hbm, ⟨11, _⟩ => ⟨S16x322048, .f32⟩
  | .hbm, ⟨12, _⟩ => ⟨S626, .i32⟩
  | .hbm, ⟨13, _⟩ => ⟨S626x1, .i32⟩
  | .hbm, ⟨14, _⟩ => ⟨S_, .i32⟩
  | .hbm, ⟨15, _⟩ => ⟨S626x1, .i32⟩
  | .hbm, ⟨16, _⟩ => ⟨S626x1, .i32⟩
  | .hbm, ⟨17, _⟩ => ⟨S2048, .i32⟩
  | .hbm, ⟨18, _⟩ => ⟨S1x2048, .i32⟩
  | .hbm, ⟨19, _⟩ => ⟨S626x2048, .i32⟩
  | .hbm, ⟨20, _⟩ => ⟨S626x2048, .i32⟩
  | .hbm, ⟨21, _⟩ => ⟨S626x2048, .i32⟩
  | .hbm, ⟨22, _⟩ => ⟨S_, .i32⟩
  | .hbm, ⟨23, _⟩ => ⟨S626x2048, .i32⟩
  | .hbm, ⟨24, _⟩ => ⟨S626x2048, .i1⟩
  | .hbm, ⟨25, _⟩ => ⟨S_, .i32⟩
  | .hbm, ⟨26, _⟩ => ⟨S626x2048, .i32⟩
  | .hbm, ⟨27, _⟩ => ⟨S626x2048, .i32⟩
  | .hbm, ⟨28, _⟩ => ⟨S626x2048, .i32⟩
  | .hbm, ⟨29, _⟩ => ⟨S626x2048x1, .i32⟩
  | .hbm, ⟨30, _⟩ => ⟨S16x626x2048, .f32⟩
  | .hbm, ⟨31, _⟩ => ⟨S16x626x1025, .f32⟩
  | .hbm, ⟨32, _⟩ => ⟨S16x626x1025, .f32⟩
  | .hbm, ⟨33, _⟩ => ⟨S16x1x626x1025, .f32⟩
  | .hbm, ⟨34, _⟩ => ⟨S16x1x626x1025, .f32⟩
  | _, _ => ⟨S16x320000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  slices_S16x320000_S16x1_0_0 : S16x320000.Slices ![0, 0] S16x1
  slices_S16x320000_S16x1024_0_1 : S16x320000.Slices ![0, 1] S16x1024
  concatenates_S16x1024_S16x320000_S16x321024_d1 : Shape.Concatenates [S16x1024, S16x320000] S16x321024 1
  slices_S16x321024_S16x1_0_321023 : S16x321024.Slices ![0, 321023] S16x1
  slices_S16x321024_S16x1024_0_319999 : S16x321024.Slices ![0, 319999] S16x1024
  concatenates_S16x321024_S16x1024_S16x322048_d1 : Shape.Concatenates [S16x321024, S16x1024] S16x322048 1
  bcast_S626_S626x1_0 : S626.BroadcastsInDim S626x1 (![0] : Fin 1 → Fin S626x1.rank)
  bcast_S_S626x1 : S_.BroadcastsInDim S626x1 (![] : Fin 0 → Fin S626x1.rank)
  bcast_S2048_S1x2048_1 : S2048.BroadcastsInDim S1x2048 (![1] : Fin 1 → Fin S1x2048.rank)
  bcast_S626x1_S626x2048_0_1 : S626x1.BroadcastsInDim S626x2048 (![0, 1] : Fin 2 → Fin S626x2048.rank)
  bcast_S1x2048_S626x2048_0_1 : S1x2048.BroadcastsInDim S626x2048 (![0, 1] : Fin 2 → Fin S626x2048.rank)
  bcast_S_S626x2048 : S_.BroadcastsInDim S626x2048 (![] : Fin 0 → Fin S626x2048.rank)
  bcast_S626x2048_S626x2048x1_0_1 : S626x2048.BroadcastsInDim S626x2048x1 (![0, 1] : Fin 2 → Fin S626x2048x1.rank)
  bcast_S16x626x1025_S16x1x626x1025_0_2_3 : S16x626x1025.BroadcastsInDim S16x1x626x1025 (![0, 2, 3] : Fin 3 → Fin S16x1x626x1025.rank)
  gather_S16x322048_S626x2048x1_S16x626x2048_0_1_n_n_1_2_161_wf : GatherDims.WF S16x322048 S626x2048x1 S16x626x2048 [0] [1] [] [1] [] 2 ![16, 1]
  dot_S16x626x2048_S1025x2048_S16x626x1025_2_1_01_0_n_n_wf : DotDims.WF S16x626x2048 S1025x2048 S16x626x1025 [2] [1] [0, 1] [0] [] []

variable [Facts₀]

def gather_S16x322048_S626x2048x1_S16x626x2048_0_1_n_n_1_2_161 : GatherDims S16x322048 S626x2048x1 S16x626x2048 where
  offsetDims := [0]
  collapsedSliceDims := [1]
  operandBatchingDims := []
  startIndicesBatchingDims := []
  startIndexMap := [1]
  indexVectorDim := 2
  sliceSizes := ![16, 1]
  wf := gather_S16x322048_S626x2048x1_S16x626x2048_0_1_n_n_1_2_161_wf
def dot_S16x626x2048_S1025x2048_S16x626x1025_2_1_01_0_n_n : DotDims S16x626x2048 S1025x2048 S16x626x1025 where
  lhsContracting := [2]
  rhsContracting := [1]
  lhsNonContracting := [0, 1]
  rhsNonContracting := [0]
  lhsBatch := []
  rhsBatch := []
  wf := dot_S16x626x2048_S1025x2048_S16x626x1025_2_1_01_0_n_n_wf

class Facts : Prop extends Facts₀ where

variable [Facts]
-- ==== Proof.KerHost.lean ====
/-
  What the host operations before the grid leave in the two matrices it multiplies.
  The left matrix: the signal is reflect-padded by 1024 samples on each side, cut into 626 overlapping frames of 2048
  samples starting every 512 samples (a gather through the table of positions t·512 + n), the 16 × 626 frames are
  laid out as the 10016 rows of a matrix, and 224 rows of padding bring it to 10240 rows.
  The right matrix: the two 1025 × 2048 weight matrices are transposed, set side by side as 2050 columns, and 126
  columns of padding bring it to 2176 columns.
  The changes of float format on the way are the identity at the exact instance and are kept as printed here.
-/
import proofs.«179482_j29789893165288_2_alg».proof.Proof.Gen.KernelIdeal.Frame
import Idealize.ShloMosaic.Lib.StableHlo.Run

noncomputable section

namespace Cert.KernelIdeal.KerValue

open Cert.KernelIdeal Cert.KernelIdeal.Gen
open Idealize.ShloMosaic Idealize.ShloMosaic.TcCoe Idealize.SL.Sem Idealize.ShloMosaic.StableHlo

variable {F : FTy → Type} [FloatOps F]

/-- The signal with its first 1024 samples after the first mirrored in front of it. -/
def paddedLeft (x : FVec F S16x320000 .f32) : FVec F S16x321024 .f32 :=
  concatenate S16x321024 1
    [⟨S16x1024, Host.reverse [1] (extractStridedSlice S16x1024 ![0, 1] x slices_S16x320000_S16x1024_0_1)⟩, ⟨S16x320000, x⟩]
    concatenates_S16x1024_S16x320000_S16x321024_d1

/-- The reflect-padded signal: also the last 1024 samples before the last mirrored behind it. -/
def padded (x : FVec F S16x320000 .f32) : FVec F S16x322048 .f32 :=
  concatenate S16x322048 1
    [⟨S16x321024, paddedLeft x⟩,
     ⟨S16x1024, Host.reverse [1] (extractStridedSlice S16x1024 ![0, 319999] (paddedLeft x) slices_S16x321024_S16x1024_0_319999)⟩]
    concatenates_S16x321024_S16x1024_S16x322048_d1

/-- Sample position t·512 + n of frame t, offset n, before the wrap of negative positions. -/
def framePosRaw : (⟨S626x2048, .i32⟩ : BufTy).Contents (Elt F) :=
  addi
    (broadcastInDim S626x2048 ![0, 1] bcast_S626x1_S626x2048_0_1
      (muli (broadcastInDim S626x1 ![0] bcast_S626_S626x1_0 (iotaInDim S626 32 0))
        (broadcastInDim S626x1 ![] bcast_S_S626x1 (constantI S_ 32 512#32))))
    (broadcastInDim S626x2048 ![0, 1] bcast_S1x2048_S626x2048_0_1
      (broadcastInDim S1x2048 ![1] bcast_S2048_S1x2048_1 (iotaInDim S2048 32 0)))

/-- The table of sample positions the frames are gathered through (a negative position would count from the end). -/
def framePos : (⟨S626x2048x1, .i32⟩ : BufTy).Contents (Elt F) :=
  broadcastInDim S626x2048x1 ![0, 1] bcast_S626x2048_S626x2048x1_0_1
    (select (cmpi .slt (framePosRaw (F := F)) (broadcastInDim S626x2048 ![] bcast_S_S626x2048 (constantI S_ 32 0#32)))
      (addi (framePosRaw (F := F)) (broadcastInDim S626x2048 ![] bcast_S_S626x2048 (constantI S_ 32 322048#32)))
      (framePosRaw (F := F)))

/-- The frames: 626 windows of 2048 samples of each of the 16 padded signals. -/
def frames (x : FVec F S16x320000 .f32) : FVec F S16x626x2048 .f32 :=
  Host.gather gather_S16x322048_S626x2048x1_S16x626x2048_0_1_n_n_1_2_161 (padded x) (framePos (F := F))

/-- The left matrix: the frames as 10016 rows, then 224 padding rows. -/
def leftMatrix (x : FVec F S16x320000 .f32) : FVec F S10240x2048 .bf16 :=
  pad S10240x2048 ![0, 0] ![224, 0] ![0, 0]
    (truncf .bf16 (shapeCast S10016x2048 (frames x) shapeCasts_S16x626x2048_S10016x2048) bitsLt_bf16_f32)
    (sitofp .bf16 (constantI S_ 32 0#32)) pads_S10016x2048_S10240x2048_02240_000 h_S_

/-- The right matrix: the transposed weights side by side, then 126 padding columns. -/
def rightMatrix (w1 w2 : FVec F S1025x2048 .f32) : FVec F S2048x2176 .bf16 :=
  truncf .bf16
    (pad S2048x2176 ![0, 0] ![0, 126] ![0, 0]
      (concatenate S2048x2050 1
        [⟨S2048x1025, transpose S2048x1025 [1, 0] w1 transposes_S1025x2048_S2048x1025_1_0⟩,
         ⟨S2048x1025, transpose S2048x1025 [1, 0] w2 transposes_S1025x2048_S2048x1025_1_0⟩]
        concatenates_S2048x1025_S2048x1025_S2048x2050_d1)
      (sitofp .f32 (constantI S_ 32 0#32)) pads_S2048x2050_S2048x2176_000_01260 h_S_)
    bitsLt_bf16_f32

variable (m : (ℓ : Loc nD τ sig) → Buf (Elt F) ℓ)

attribute [local irreducible] Host.gather pad concatenate transpose extractStridedSlice Host.reverse shapeCast broadcastInDim in
set_option maxHeartbeats 2000000 in
/-- The grid finds the left matrix in its first operand's array. -/
theorem entry_left (c : Dev nD) : V m c main_v19 = leftMatrix (m ((c : Thread nD τ).loc main_arg0)) := by
  dsimp only [V, V0]
  simp only [hostOps0, hostOps0_1, hostOps0_2, hostOps0_3, hostOps0_4, hostOps0_5, hostOps0_6, List.flatten_cons, List.flatten_nil,
    List.append_nil, List.cons_append, List.nil_append, TRef.unary, TRef.binary, TRef.nullary, main_call0_call0, main_call0_call1]
  after_results_simp
  simp only [TRef.toBuf, TRef.ofBuf, cast_eq]
  rfl

attribute [local irreducible] Host.gather pad concatenate transpose extractStridedSlice Host.reverse shapeCast broadcastInDim in
set_option maxHeartbeats 2000000 in
/-- The grid finds the right matrix in its second operand's array. -/
theorem entry_right (c : Dev nD) :
    V m c main_v24 = rightMatrix (m ((c : Thread nD τ).loc main_arg1)) (m ((c : Thread nD τ).loc main_arg2)) := by
  dsimp only [V, V0]
  simp only [hostOps0, hostOps0_1, hostOps0_2, hostOps0_3, hostOps0_4, hostOps0_5, hostOps0_6, List.flatten_cons, List.flatten_nil,
    List.append_nil, List.cons_append, List.nil_append, TRef.unary, TRef.binary, TRef.nullary, main_call0_call0, main_call0_call1]
  after_results_simp
  simp only [TRef.toBuf, TRef.ofBuf, cast_eq]
  rfl

end Cert.KernelIdeal.KerValue

end
-- ==== Proof.KerPayload.lean ====
/-
  The kernel body at one grid point: it loads a 512 × 2048 block of the left matrix and the whole 2048 × 2176 right
  matrix, multiplies them into a zero accumulator and stores the 512 × 2176 product. Read at the exact instance, entry
  (p, q) of what it stores is the plain sum over the 2048 contracted positions of left (p, k) times right (k, q):
  the zero accumulator contributes nothing, and the two shape casts are casts to the same shape.
-/
import proofs.«179482_j29789893165288_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.KerValue

open Cert.KernelIdeal Cert.KernelIdeal.Gen
open Idealize.ShloMosaic Idealize.ShloMosaic.ValueIdx

/-- The block product's dimension numbers: rows of the left block against columns of the right matrix, contracted
    over the left's axis 1 and the right's axis 0. -/
abbrev blockDot : DotDims S512x2048 S2048x2176 S512x2176 := dot_S512x2048_S2048x2176_S512x2176_1_0_0_1_n_n

/-- One axis is contracted, -/
theorem blockDot_rank : blockDot.contr.rank = 1 := rfl
/-- and it has the 2048 positions of a frame. -/
theorem blockDot_size : blockDot.contr.size ⟨0, by rw [blockDot_rank]; exact Nat.one_pos⟩ = 2048 := rfl

/-- The left operand's index at output entry (p, q) and contraction position k is (p, k). -/
theorem blockDot_lhsIdx (p : Fin 512) (q : Fin 2176) (k : Fin 2048) :
    blockDot.lhsIdx (ix2 p q) ((contrEquiv1 blockDot 2048 blockDot_rank blockDot_size).symm k) = ix2 p k :=
  funext fun a => Fin.ext (by
    match a with
    | ⟨0, _⟩ => rfl
    | ⟨1, _⟩ =>
      exact (blockDot.lhsIdx_val_of_single (cl := (1 : Fin 2)) rfl (ix2 p q) _).trans
        (contrEquiv1_symm_val blockDot 2048 blockDot_rank blockDot_size k))

/-- The right operand's is (k, q). -/
theorem blockDot_rhsIdx (p : Fin 512) (q : Fin 2176) (k : Fin 2048) :
    blockDot.rhsIdx (ix2 p q) ((contrEquiv1 blockDot 2048 blockDot_rank blockDot_size).symm k) = ix2 k q :=
  funext fun a => Fin.ext (by
    match a with
    | ⟨0, _⟩ =>
      exact (blockDot.rhsIdx_val_of_single (cr := (0 : Fin 2)) rfl (ix2 p q) _).trans
        (contrEquiv1_symm_val blockDot 2048 blockDot_rank blockDot_size k)
    | ⟨1, _⟩ => rfl)

/-- What the body stores, entry by entry: the sum over the contracted positions of the products. -/
theorem stored_apply (x0 : Vec Ideal S512x2048 .bf16) (x1 : Vec Ideal S2048x2176 .bf16) (p : Fin 512) (q : Fin 2176) :
    k0_pay1 (F := Ideal) x0 x1 (ix2 p q) = ∑ k : Fin 2048, x0 (ix2 p k) * x1 (ix2 k q) := by
  unfold k0_pay1
  simp only [shapeCast_self]
  refine (Ideal.matmul_constant_zero_apply (φ₁ := .bf16) (φ₂ := .bf16) blockDot none x0 x1 (ix2 p q)).trans ?_
  refine (Equiv.sum_comp (contrEquiv1 blockDot 2048 blockDot_rank blockDot_size).symm _).symm.trans ?_
  refine Finset.sum_congr rfl fun k _ => ?_
  rw [blockDot_lhsIdx, blockDot_rhsIdx]

end Cert.KernelIdeal.KerValue

end
-- ==== Proof.KerRegion.lean ====
/-
  What the grid leaves in the product array. The grid has twenty points; point t multiplies rows 512·t … 512·t + 511
  of the left matrix with the whole right matrix and writes the 512 × 2176 result back as block t of the 10240 × 2176
  product array. Every entry of the array lies in exactly the block of the point (row / 512), so after the last point
  the array holds the full matrix product, entry by entry.
-/
import proofs.«179482_j29789893165288_2_alg».proof.Proof.Gen.KernelIdeal.Frame
import proofs.«179482_j29789893165288_2_alg».proof.Proof.KerPayload
import Idealize.ShloMosaic.Lib.Pipeline.Value
import Idealize.ShloMosaic.Lib.ValueIdx

set_option maxRecDepth 16384

noncomputable section

namespace Cert.KernelIdeal.KerValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The matrix product, entry by entry: row p of the left matrix against column q of the right one. -/
def matProd (A : FVec Ideal S10240x2048 .bf16) (B : FVec Ideal S2048x2176 .bf16) : FVec Ideal S10240x2176 .f32 :=
  fun i => ∑ k : Fin 2048, A (ix2 (⟨(i 0).val, idx2_lt0 i⟩ : Fin 10240) k) * B (ix2 k (⟨(i 1).val, idx2_lt1 i⟩ : Fin 2176))

theorem matProd_apply (A : FVec Ideal S10240x2048 .bf16) (B : FVec Ideal S2048x2176 .bf16) (p : Fin 10240) (q : Fin 2176) :
    matProd A B (ix2 p q) = ∑ k : Fin 2048, A (ix2 p k) * B (ix2 k q) := rfl

/-- Every access of the body starts at the origin of its buffer. -/
theorem origin2 : (![0, 0] : Fin 2 → Nat) = fun _ => 0 := funext fun a => by fin_cases a <;> rfl

/-- The index maps over the grid: the left and the product blocks move down one block per point, the right matrix
    is one block that stays. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the block the body stores is the matching entry of the product, whenever the body's two inputs are
    the matching rows of the left matrix and the whole right matrix. -/
theorem stored_is_product (A : FVec Ideal S10240x2048 .bf16) (B : FVec Ideal S2048x2176 .bf16)
    (x0 : Vec Ideal S512x2048 .bf16) (x1 : Vec Ideal S2048x2176 .bf16) (T : Nat)
    (h0 : ∀ (p : Fin 512) (k : Fin 2048) (P : Fin 10240), P.val = T * 512 + p.val → x0 (ix2 p k) = A (ix2 P k))
    (h1 : ∀ (k : Fin 2048) (q : Fin 2176), x1 (ix2 k q) = B (ix2 k q))
    (y : S512x2176.Idx) (i : S10240x2176.Idx) (hi0 : (i 0).val = T * 512 + (y 0).val) (hi1 : (i 1).val = (y 1).val) :
    k0_pay1 (F := Ideal) x0 x1 y = matProd A B i := by
  obtain ⟨p, q, rfl⟩ : ∃ (p : Fin 512) (q : Fin 2176), y = ix2 p q := ⟨y 0, y 1, eq_ix2 y⟩
  obtain ⟨P, Q, rfl⟩ : ∃ (P : Fin 10240) (Q : Fin 2176), i = ix2 P Q := ⟨i 0, i 1, eq_ix2 i⟩
  have hP : P.val = T * 512 + p.val := hi0
  have hQ : Q = q := Fin.ext hi1
  subst hQ
  rw [stored_apply, matProd_apply]
  exact Finset.sum_congr rfl fun k _ => by rw [h0 p k P hP, h1 k Q]

variable (m : (ℓ : Loc nD τ sig) → Buf (Elt Ideal) ℓ)

/-- The left block at point t holds rows 512·t … of the left matrix. -/
theorem left_block (c : Dev nD) (t : Fin cfg0.N) (p : Fin 512) (k : Fin 2048) (P : Fin 10240) (hP : P.val = t.val * 512 + p.val) :
    iblk m c 0 t (ix2 p k) = V m c main_v19 (ix2 P k) := by
  obtain ⟨e0, e1, -⟩ := block_indices t
  show V m c main_v19 (((cfg0.win 0).blk t).view.emb (ix2 p k)) = V m c main_v19 (ix2 P k)
  refine congrArg (V m c main_v19) (funext fun a => Fin.ext ?_)
  match a with
  | ⟨0, _⟩ => show win0_0.index t (0 : Fin 2) * 512 + 1 * p.val = P.val; omega
  | ⟨1, _⟩ => show win0_0.index t (1 : Fin 2) * 2048 + 1 * k.val = k.val; omega

/-- The right block at every point is the whole right matrix. -/
theorem right_block (c : Dev nD) (t : Fin cfg0.N) (k : Fin 2048) (q : Fin 2176) :
    iblk m c 1 t (ix2 k q) = V m c main_v24 (ix2 k q) := by
  obtain ⟨-, -, e2, e3, -⟩ := block_indices t
  show V m c main_v24 (((cfg0.win 1).blk t).view.emb (ix2 k q)) = V m c main_v24 (ix2 k q)
  refine congrArg (V m c main_v24) (funext fun a => Fin.ext ?_)
  match a with
  | ⟨0, _⟩ => show win0_1.index t (0 : Fin 2) * 2048 + 1 * k.val = k.val; omega
  | ⟨1, _⟩ => show win0_1.index t (1 : Fin 2) * 2176 + 1 * q.val = q.val; omega

/-- What point t writes back is block t of the product of the two matrices as the grid finds them. -/
theorem flushed_is_product (c : Dev nD) (t : Fin cfg0.N) :
    (dats m 0 c).flushed 2 t
      = ((cfg0.win 2).blk t).view.read (Elt Ideal) (matProd (V m c main_v19) (V m c main_v24)) := by
  show (cfg0.win 2).cut (grid0.coords t) ((dats m 0 c).after 2 t) = _
  rw [after0_2]
  unfold out0_2
  rw [View.canon_unit_zero origin2]
  simp only [View.ld_unit_zero (S := S512x2048) origin2, View.ld_unit_zero (S := S2048x2176) origin2]
  obtain ⟨-, -, -, -, e4, e5⟩ := block_indices t
  funext j
  show k0_pay1 (F := Ideal) (iblk m c 0 t) (iblk m c 1 t) j
      = matProd (V m c main_v19) (V m c main_v24) (((cfg0.win 2).blk t).view.emb j)
  refine stored_is_product (V m c main_v19) (V m c main_v24) (iblk m c 0 t) (iblk m c 1 t) t.val
    (fun p k P hP => left_block m c t p k P hP) (fun k q => right_block m c t k q) j _ ?_ ?_
  · show win0_2.index t (0 : Fin 2) * 512 + 1 * (j 0).val = t.val * 512 + (j 0).val; omega
  · show win0_2.index t (1 : Fin 2) * 2176 + 1 * (j 1).val = (j 1).val; omega

/-- An entry is in point t's block iff each coordinate is in the block's range on its axis. -/
theorem mem_block (t : Fin cfg0.N) (i : S10240x2176.Idx) :
    i ∈ ((cfg0.win 2).blk t).view.set ↔ ∀ a : Fin 2, win0_2.index t a * S512x2176.size a ≤ (i a).val
      ∧ (i a).val < win0_2.index t a * S512x2176.size a + S512x2176.size a := by
  show i ∈ ((View.whole main_v25).slice (win0_2.rect t)).set ↔ _
  rw [View.set_slice_whole, Rect.mem_set_unit]
  exact Iff.rfl

/-- Every entry of the product array is in the block of the point (row / 512). -/
theorem blocks_cover (i : S10240x2176.Idx) :
    ∃ t : Fin cfg0.N, (cfg0.win 2).flush t = true ∧ i ∈ ((cfg0.win 2).blk t).view.set := by
  have hi0 : (i 0).val < 10240 := (i 0).isLt
  have hi1 : (i 1).val < 2176 := (i 1).isLt
  have hN : cfg0.N = 20 := N_0
  have ht : (i 0).val / 512 < cfg0.N := by rw [hN]; omega
  obtain ⟨-, -, -, -, e4, e5⟩ := block_indices ⟨(i 0).val / 512, ht⟩
  have e4' : win0_2.index ⟨(i 0).val / 512, ht⟩ (0 : Fin 2) = (i 0).val / 512 := e4
  refine ⟨⟨(i 0).val / 512, ht⟩, flush0_2 _, ?_⟩
  rw [mem_block]
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    omega
  | ⟨1, _⟩ =>
    show win0_2.index ⟨(i 0).val / 512, ht⟩ (1 : Fin 2) * 2176 ≤ (i 1).val
      ∧ (i 1).val < win0_2.index ⟨(i 0).val / 512, ht⟩ (1 : Fin 2) * 2176 + 2176
    omega

/-- After the grid the product array holds the whole product of the two matrices as the grid found them. -/
theorem product_array (c : Dev nD) :
    (dats m 0 c).arrAt 2 cfg0.N = matProd (V m c main_v19) (V m c main_v24) :=
  (dats m 0 c).arrAt_eq_of_cover 2 _ (fun t _ => flushed_is_product m c t) blocks_cover

end Cert.KernelIdeal.KerValue

end
-- ==== Proof.KerTail.lean ====
/-
  The host operations after the grid. The product array has 10240 rows and 2176 columns; its first 10016 rows and
  first 2050 columns are the products of the 16 × 626 frames with the two transposed weight matrices. The real half
  is columns 0 … 1024, the imaginary half columns 1025 … 2049; each is laid out as [16, 626, 1025] and given a unit
  axis. Both results are therefore one function of the product array, and the grid's proof data says what that array is.
-/
import proofs.«179482_j29789893165288_2_alg».proof.Proof.Gen.KernelIdeal.Frame
import Idealize.ShloMosaic.Lib.StableHlo.Run

noncomputable section

namespace Cert.KernelIdeal.KerValue

open Cert.KernelIdeal Cert.KernelIdeal.Gen
open Idealize.ShloMosaic Idealize.ShloMosaic.TcCoe Idealize.SL.Sem Idealize.ShloMosaic.StableHlo
open Idealize.ShloMosaic.Pipeline (Dat Cfg Window)

variable {F : FTy → Type} [FloatOps F]

/-- The rows and columns of the product array that are not padding. -/
def unpadded (out : FVec F S10240x2176 .f32) : FVec F S10016x2050 .f32 :=
  extractStridedSlice S10016x2050 ![0, 0] out slices_S10240x2176_S10016x2050_0_0

/-- The real half of the spectrum: the first 1025 columns, frame by frame, with the unit axis. -/
def realPart (out : FVec F S10240x2176 .f32) : FVec F S16x1x626x1025 .f32 :=
  broadcastInDim S16x1x626x1025 ![0, 2, 3] bcast_S16x626x1025_S16x1x626x1025_0_2_3
    (shapeCast S16x626x1025 (extractStridedSlice S10016x1025 ![0, 0] (unpadded out) slices_S10016x2050_S10016x1025_0_0)
      shapeCasts_S10016x1025_S16x626x1025)

/-- The imaginary half: the next 1025 columns. -/
def imagPart (out : FVec F S10240x2176 .f32) : FVec F S16x1x626x1025 .f32 :=
  broadcastInDim S16x1x626x1025 ![0, 2, 3] bcast_S16x626x1025_S16x1x626x1025_0_2_3
    (shapeCast S16x626x1025 (extractStridedSlice S10016x1025 ![0, 1025] (unpadded out) slices_S10016x2050_S10016x1025_0_1025)
      shapeCasts_S10016x1025_S16x626x1025)

/-- The operations after the grid put the real half of whatever the product array holds in the first result. -/
theorem tail_real_of (W : Valuation τ sig (Elt F)) :
    StableHlo.after hostOps1 W (Proc.devRef .tc main_v31) = realPart (W (Proc.devRef .tc main_v25)) := by
  simp only [hostOps1]
  after_results
  rfl

/-- And the imaginary half in the second. -/
theorem tail_imag_of (W : Valuation τ sig (Elt F)) :
    StableHlo.after hostOps1 W (Proc.devRef .tc main_v32) = imagPart (W (Proc.devRef .tc main_v25)) := by
  simp only [hostOps1]
  after_results
  rfl

variable (m : (ℓ : Loc nD τ sig) → Buf (Elt F) ℓ)

/-- When the operations after the grid start, the product array's buffer holds what the proof data says the grid left. -/
theorem region_out (c : Dev nD) :
    Pipeline.withArrays spec0 c (V0 m c) (fun w => (dats m 0 c).arrAt w cfg0.N) (Proc.devRef .tc main_v25)
      = (dats m 0 c).arrAt 2 cfg0.N :=
  Pipeline.withArrays_arr spec0 launch0.win.arr_inj c _ _ 2

/-- The first result after the whole run. -/
theorem tail_real (c : Dev nD) :
    Pipeline.afterTail₀ cfgs (dats m) 0 (V0 m) [hostOps1] c main_v31 = realPart ((dats m 0 c).arrAt 2 cfg0.N) := by
  unfold Pipeline.afterTail₀
  show StableHlo.after hostOps1 (Pipeline.withArrays spec0 c (V0 m c) fun w => (dats m 0 c).arrAt w cfg0.N)
      (Proc.devRef .tc main_v31) = _
  exact (tail_real_of _).trans (congrArg realPart (region_out m c))

/-- The second result after the whole run. -/
theorem tail_imag (c : Dev nD) :
    Pipeline.afterTail₀ cfgs (dats m) 0 (V0 m) [hostOps1] c main_v32 = imagPart ((dats m 0 c).arrAt 2 cfg0.N) := by
  unfold Pipeline.afterTail₀
  show StableHlo.after hostOps1 (Pipeline.withArrays spec0 c (V0 m c) fun w => (dats m 0 c).arrAt w cfg0.N)
      (Proc.devRef .tc main_v32) = _
  exact (tail_imag_of _).trans (congrArg imagPart (region_out m c))

end Cert.KernelIdeal.KerValue

end
-- ==== Proof.KerRun.lean ====
/-
  The kernel program's run, read back: every weakly fair execution terminates with the first result at the real half
  and the second at the imaginary half of the product of the left matrix (the frames of the signal) with the right
  matrix (the two transposed weight matrices side by side), the three arguments unchanged. The run itself and the
  arguments' frame are the generated frame run's; what is added is what the product array holds (the grid's blocks
  tile it) and what the operations before and after the grid make of it.
-/
import proofs.«179482_j29789893165288_2_alg».proof.Proof.Gen.KernelIdeal.Frame
import proofs.«179482_j29789893165288_2_alg».proof.Proof.KerHost
import proofs.«179482_j29789893165288_2_alg».proof.Proof.KerRegion
import proofs.«179482_j29789893165288_2_alg».proof.Proof.KerTail

noncomputable section

namespace Cert.KernelIdeal.KerValue

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The product array after the grid, as a function of the arguments. -/
theorem product_of_args (c : Dev nD) :
    (dats m 0 c).arrAt 2 cfg0.N
      = matProd (leftMatrix (m ((c : Thread nD τ).loc main_arg0)))
          (rightMatrix (m ((c : Thread nD τ).loc main_arg1)) (m ((c : Thread nD τ).loc main_arg2))) := by
  rw [product_array, entry_left, entry_right]

/-- The run, with each result named as a function of the arguments. -/
theorem run : θ_run defs (onTc (τ := τ) (main (F := Ideal))) ⟨m, fun _ => 0, ρ⟩ fun r => ∀ c : Dev nD,
      r.2.mem ((c.tc : Thread nD τ).loc main_v31)
        = realPart (matProd (leftMatrix (m ((c.tc : Thread nD τ).loc main_arg0)))
            (rightMatrix (m ((c.tc : Thread nD τ).loc main_arg1)) (m ((c.tc : Thread nD τ).loc main_arg2))))
      ∧ r.2.mem ((c.tc : Thread nD τ).loc main_v32)
        = imagPart (matProd (leftMatrix (m ((c.tc : Thread nD τ).loc main_arg0)))
            (rightMatrix (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(((h c).2 main_v31 (Pipeline.mem_restRefs_of main_v31 (by decide) (by decide))).trans (tail_real m c)).trans
        (congrArg realPart (product_of_args m c)),
      (((h c).2 main_v32 (Pipeline.mem_restRefs_of main_v32 (by decide) (by decide))).trans (tail_imag m c)).trans
        (congrArg imagPart (product_of_args m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KerValue

end
-- ==== Proof.KerIndex.lean ====
/-
  The kernel program's two results, entry by entry, at the exact instance.
  Entry (b, 0, t, r) of the real half is entry (b·626 + t, r) of the product array, which is the sum over the 2048
  positions k of left(b·626 + t, k) · right(k, r). Row b·626 + t of the left matrix is frame t of signal b (it is not
  a padding row), and column r < 1025 of the right matrix is row r of the first weight matrix (a column of its
  transpose; it is not a padding column). The imaginary half reads column 1025 + r, which is row r of the second
  weight matrix. So both results are the frames contracted with a weight matrix over the sample axis.
-/
import proofs.«179482_j29789893165288_2_alg».proof.Proof.KerHost
import proofs.«179482_j29789893165288_2_alg».proof.Proof.KerTail
import proofs.«179482_j29789893165288_2_alg».proof.Proof.KerRegion
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.KerValue

open Cert.KernelIdeal Cert.KernelIdeal.Gen
open Idealize.ShloMosaic Idealize.ShloMosaic.ValueIdx

/-- The row of the frame matrix that holds frame t of signal b. -/
def frameRow (b : Fin 16) (t : Fin 626) : Fin 10016 :=
  ⟨b.val * 626 + t.val, by have := b.isLt; have := t.isLt; omega⟩

/-- An entry of the unpadded part of the product array is the same entry of the array. -/
theorem unpadded_apply (out : FVec Ideal S10240x2176 .f32) (P : Fin 10016) (q : Fin 2050) (P' : Fin 10240) (q' : Fin 2176)
    (hP : P'.val = P.val) (hq : q'.val = q.val) : unpadded out (ix2 P q) = out (ix2 P' q') := by
  unfold unpadded
  refine extractStridedSlice_apply _ out _ (ix2 P q) (ix2 P' q') fun a => ?_
  match a with
  | ⟨0, _⟩ => show P'.val = 0 + P.val; omega
  | ⟨1, _⟩ => show q'.val = 0 + q.val; omega

/-- Entry (b, 0, t, r) of the real half is entry (b·626 + t, r) of the product array. -/
theorem realPart_apply (out : FVec Ideal S10240x2176 .f32) (b : Fin 16) (u : Fin 1) (t : Fin 626) (r : Fin 1025)
    (P' : Fin 10240) (q' : Fin 2176) (hP : P'.val = b.val * 626 + t.val) (hq : q'.val = r.val) :
    realPart out (ix4 b u t r) = out (ix2 P' q') := by
  have hr := r.isLt
  unfold realPart
  refine (broadcastInDim_apply _ _ _ (ix4 b u t r) (ix3 b t r) fun a => ?_).trans ?_
  · match a with
    | ⟨0, _⟩ => first | rfl | exact (if_neg (by decide)).symm
    | ⟨1, _⟩ => first | rfl | exact (if_neg (by decide)).symm
    | ⟨2, _⟩ => first | rfl | exact (if_neg (by decide)).symm
  refine (shapeCast_apply _ _ (ix3 b t r) (ix2 (frameRow b t) r) ?_).trans ?_
  · rw [Shape.rowMajor_val_two, Shape.rowMajor_val_three]; rfl
  refine (slice2_axis1_apply 0 _ _ (frameRow b t) r (⟨r.val, by omega⟩ : Fin 2050) (by simp)).trans ?_
  exact unpadded_apply out (frameRow b t) ⟨r.val, by omega⟩ P' q' hP hq

/-- Entry (b, 0, t, r) of the imaginary half is entry (b·626 + t, 1025 + r) of the product array. -/
theorem imagPart_apply (out : FVec Ideal S10240x2176 .f32) (b : Fin 16) (u : Fin 1) (t : Fin 626) (r : Fin 1025)
    (P' : Fin 10240) (q' : Fin 2176) (hP : P'.val = b.val * 626 + t.val) (hq : q'.val = 1025 + r.val) :
    imagPart out (ix4 b u t r) = out (ix2 P' q') := by
  have hr := r.isLt
  unfold imagPart
  refine (broadcastInDim_apply _ _ _ (ix4 b u t r) (ix3 b t r) fun a => ?_).trans ?_
  · match a with
    | ⟨0, _⟩ => first | rfl | exact (if_neg (by decide)).symm
    | ⟨1, _⟩ => first | rfl | exact (if_neg (by decide)).symm
    | ⟨2, _⟩ => first | rfl | exact (if_neg (by decide)).symm
  refine (shapeCast_apply _ _ (ix3 b t r) (ix2 (frameRow b t) r) ?_).trans ?_
  · rw [Shape.rowMajor_val_two, Shape.rowMajor_val_three]; rfl
  refine (slice2_axis1_apply 1025 _ _ (frameRow b t) r (⟨1025 + r.val, by omega⟩ : Fin 2050) rfl).trans ?_
  exact unpadded_apply out (frameRow b t) ⟨1025 + r.val, by omega⟩ P' q' hP hq

/-- Row b·626 + t of the left matrix is frame t of signal b: the row is no padding row, the change of float format is
    the identity, and the rows are the frames in row-major order. -/
theorem leftMatrix_apply (x : FVec Ideal S16x320000 .f32) (b : Fin 16) (t : Fin 626) (k : Fin 2048) (P : Fin 10240)
    (hP : P.val = b.val * 626 + t.val) : leftMatrix (F := Ideal) x (ix2 P k) = frames (F := Ideal) x (ix3 b t k) := by
  unfold leftMatrix
  refine (pad_apply_of_inside _ _ _ _ _ _ _ (ix2 P k) (ix2 (frameRow b t) k) fun a => ?_).trans ?_
  · match a with
    | ⟨0, _⟩ => show P.val = 0 + (b.val * 626 + t.val) * (0 + 1); omega
    | ⟨1, _⟩ => show k.val = 0 + k.val * (0 + 1); omega
  refine (truncf_apply (φ := .f32) (ψ := .bf16) _ bitsLt_bf16_f32 _).trans ?_
  refine shapeCast_apply _ _ (ix2 (frameRow b t) k) (ix3 b t k) ?_
  rw [Shape.rowMajor_val_two, Shape.rowMajor_val_three]; rfl

/-- Column r < 1025 of the right matrix is row r of the first weight matrix. -/
theorem rightMatrix_real (w1 w2 : FVec Ideal S1025x2048 .f32) (k : Fin 2048) (r : Fin 1025) (q : Fin 2176)
    (hq : q.val = r.val) : rightMatrix (F := Ideal) w1 w2 (ix2 k q) = w1 (ix2 r k) := by
  have hr := r.isLt
  unfold rightMatrix
  refine (truncf_apply (φ := .f32) (ψ := .bf16) _ bitsLt_bf16_f32 _).trans ?_
  refine (pad_apply_of_inside _ _ _ _ _ _ _ (ix2 k q) (ix2 k (⟨r.val, by omega⟩ : Fin 2050)) fun a => ?_).trans ?_
  · match a with
    | ⟨0, _⟩ => show k.val = 0 + k.val * (0 + 1); omega
    | ⟨1, _⟩ => show q.val = 0 + r.val * (0 + 1); omega
  refine (concatenate_pair_apply_left (s₁ := S2048x1025) (s₂ := S2048x1025) (1 : Fin 2) _ _ _ (ix2 k (⟨r.val, by omega⟩ : Fin 2050)) rfl (ix2 k r) fun a => ?_).trans ?_
  · match a with
    | ⟨0, _⟩ => rfl
    | ⟨1, _⟩ => rfl
  exact transpose_ix2_apply w1 _ k r

/-- Column 1025 + r of the right matrix is row r of the second weight matrix. -/
theorem rightMatrix_imag (w1 w2 : FVec Ideal S1025x2048 .f32) (k : Fin 2048) (r : Fin 1025) (q : Fin 2176)
    (hq : q.val = 1025 + r.val) : rightMatrix (F := Ideal) w1 w2 (ix2 k q) = w2 (ix2 r k) := by
  have hr := r.isLt
  unfold rightMatrix
  refine (truncf_apply (φ := .f32) (ψ := .bf16) _ bitsLt_bf16_f32 _).trans ?_
  refine (pad_apply_of_inside _ _ _ _ _ _ _ (ix2 k q) (ix2 k (⟨1025 + r.val, by omega⟩ : Fin 2050)) fun a => ?_).trans ?_
  · match a with
    | ⟨0, _⟩ => show k.val = 0 + k.val * (0 + 1); omega
    | ⟨1, _⟩ => show q.val = 0 + (1025 + r.val) * (0 + 1); omega
  refine (concatenate_pair_apply_right (s₁ := S2048x1025) (s₂ := S2048x1025) (1 : Fin 2) _ _ _ (ix2 k (⟨1025 + r.val, by omega⟩ : Fin 2050)) rfl rfl (ix2 k r)
    (fun a ha => ?_) ?_).trans ?_
  · match a, ha with
    | ⟨0, _⟩, _ => rfl
    | ⟨1, _⟩, ha => exact absurd rfl ha
  · show r.val + 1025 = 1025 + r.val; omega
  exact transpose_ix2_apply w2 _ k r

/-- The real result, entry by entry: frame t of signal b contracted with row r of the first weight matrix. -/
theorem real_entry (x : FVec Ideal S16x320000 .f32) (w1 w2 : FVec Ideal S1025x2048 .f32)
    (b : Fin 16) (u : Fin 1) (t : Fin 626) (r : Fin 1025) :
    realPart (matProd (leftMatrix (F := Ideal) x) (rightMatrix (F := Ideal) w1 w2)) (ix4 b u t r)
      = ∑ k : Fin 2048, frames (F := Ideal) x (ix3 b t k) * w1 (ix2 r k) := by
  have hb := b.isLt; have ht := t.isLt; have hr := r.isLt
  rw [realPart_apply _ b u t r (⟨b.val * 626 + t.val, by omega⟩ : Fin 10240) (⟨r.val, by omega⟩ : Fin 2176) rfl rfl,
    matProd_apply]
  exact Finset.sum_congr rfl fun k _ => by
    rw [leftMatrix_apply x b t k _ rfl, rightMatrix_real w1 w2 k r _ rfl]

/-- The imaginary result, entry by entry: the same frame contracted with row r of the second weight matrix. -/
theorem imag_entry (x : FVec Ideal S16x320000 .f32) (w1 w2 : FVec Ideal S1025x2048 .f32)
    (b : Fin 16) (u : Fin 1) (t : Fin 626) (r : Fin 1025) :
    imagPart (matProd (leftMatrix (F := Ideal) x) (rightMatrix (F := Ideal) w1 w2)) (ix4 b u t r)
      = ∑ k : Fin 2048, frames (F := Ideal) x (ix3 b t k) * w2 (ix2 r k) := by
  have hb := b.isLt; have ht := t.isLt; have hr := r.isLt
  rw [imagPart_apply _ b u t r (⟨b.val * 626 + t.val, by omega⟩ : Fin 10240) (⟨1025 + r.val, by omega⟩ : Fin 2176) rfl rfl,
    matProd_apply]
  exact Finset.sum_congr rfl fun k _ => by
    rw [leftMatrix_apply x b t k _ rfl, rightMatrix_imag w1 w2 k r _ rfl]

end Cert.KernelIdeal.KerValue

end
-- ==== Proof.RefRun.lean ====
import proofs.«179482_j29789893165288_2_alg».proof.Proof.Gen.ReferenceIdeal
import Idealize.ShloMosaic.Lib.StableHlo.Run
import Idealize.ShloMosaic.Lib.ValueIdx
import Idealize.ShloMosaic.Lib.Pipeline.Value
import Idealize.ShloMosaic.PureOps.Ideal.Laws

/-!
# The reference program's run

The reference pads the signal by reflection at both ends, cuts it into 626 overlapping frames of
2048 samples (hop 512) through a table of sample positions, and contracts every frame with two
weight matrices. Here its operations are listed in order, its run is read back as one pure term of
the three arguments, and at the exact instance an entry of a result is shown to be the plain sum
over the samples of a frame.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The table of sample positions: entry (t, n) is t·512 + n, moved up by the padded length where
    negative (it never is), with a trailing unit axis for the gather. -/
def positions : IVec S626x2048x1 32 :=
  broadcastInDim S626x2048x1 ![0, 1] bcast_S626x2048_S626x2048x1_0_1
    (select
      (cmpi .slt
        (addi
          (broadcastInDim S626x2048 ![0, 1] bcast_S626x1_S626x2048_0_1
            (muli (broadcastInDim S626x1 ![0] bcast_S626_S626x1_0 (iotaInDim S626 32 0))
              (broadcastInDim S626x1 ![] bcast_S_S626x1 (constantI S_ 32 512#32))))
          (broadcastInDim S626x2048 ![0, 1] bcast_S1x2048_S626x2048_0_1
            (broadcastInDim S1x2048 ![1] bcast_S2048_S1x2048_1 (iotaInDim S2048 32 0))))
        (broadcastInDim S626x2048 ![] bcast_S_S626x2048 (constantI S_ 32 0#32)))
      (addi
        (addi
          (broadcastInDim S626x2048 ![0, 1] bcast_S626x1_S626x2048_0_1
            (muli (broadcastInDim S626x1 ![0] bcast_S626_S626x1_0 (iotaInDim S626 32 0))
              (broadcastInDim S626x1 ![] bcast_S_S626x1 (constantI S_ 32 512#32))))
          (broadcastInDim S626x2048 ![0, 1] bcast_S1x2048_S626x2048_0_1
            (broadcastInDim S1x2048 ![1] bcast_S2048_S1x2048_1 (iotaInDim S2048 32 0))))
        (broadcastInDim S626x2048 ![] bcast_S_S626x2048 (constantI S_ 32 322048#32)))
      (addi
        (broadcastInDim S626x2048 ![0, 1] bcast_S626x1_S626x2048_0_1
          (muli (broadcastInDim S626x1 ![0] bcast_S626_S626x1_0 (iotaInDim S626 32 0))
            (broadcastInDim S626x1 ![] bcast_S_S626x1 (constantI S_ 32 512#32))))
        (broadcastInDim S626x2048 ![0, 1] bcast_S1x2048_S626x2048_0_1
          (broadcastInDim S1x2048 ![1] bcast_S2048_S1x2048_1 (iotaInDim S2048 32 0)))))

/-- the frames: @main's operations up to the gather (the constant, @_pad's eight operations inlined, the index table, the gather), composed as one pure term of the signal -/
def frames (x : FVec F S16x320000 .f32) : FVec F S16x626x2048 .f32 :=
  Host.gather gather_S16x322048_S626x2048x1_S16x626x2048_0_1_n_n_1_2_161
    (concatenate S16x322048 1
      [⟨S16x321024,
          concatenate S16x321024 1
            [⟨S16x1024, Host.reverse [1] (extractStridedSlice S16x1024 ![0, 1] x slices_S16x320000_S16x1024_0_1)⟩,
             ⟨S16x320000, x⟩]
            concatenates_S16x1024_S16x320000_S16x321024_d1⟩,
       ⟨S16x1024,
          Host.reverse [1]
            (extractStridedSlice S16x1024 ![0, 319999]
              (concatenate S16x321024 1
                [⟨S16x1024, Host.reverse [1] (extractStridedSlice S16x1024 ![0, 1] x slices_S16x320000_S16x1024_0_1)⟩,
                 ⟨S16x320000, x⟩]
                concatenates_S16x1024_S16x320000_S16x321024_d1)
              slices_S16x321024_S16x1024_0_319999)⟩]
      concatenates_S16x321024_S16x1024_S16x322048_d1)
    positions

/-- one spectrum half: the frames contracted with a weight matrix over the sample axis, with the unit axis added -/
def spectrum (x : FVec F S16x320000 .f32) (w : FVec F S1025x2048 .f32) : FVec F S16x1x626x1025 .f32 :=
  broadcastInDim S16x1x626x1025 ![0, 2, 3] bcast_S16x626x1025_S16x1x626x1025_0_2_3
    (Host.dotGeneral dot_S16x626x2048_S1025x2048_S16x626x1025_2_1_01_0_n_n none (frames x) w)

/-- @main's operations in order, the call of the padding function unfolded: the scalar zero it is
    passed; its eight (the two leading slices, the first reflection, the left concatenation, the two
    trailing slices, the second reflection, the right concatenation); the position table's eighteen;
    the gather; the two contractions and the two unit-axis broadcasts. -/
abbrev ops : List (HloOp τ sig (Elt F)) :=
  [ nullary main_c (constantI S_ 32 0#32),
    TRef.unary (.of main_arg0 : TRef sig ⟨S16x320000, .f32⟩) main_call0.v0 (extractStridedSlice S16x1 ![0, 0] · slices_S16x320000_S16x1_0_0),
    TRef.unary (.of main_arg0 : TRef sig ⟨S16x320000, .f32⟩) main_call0.v1 (extractStridedSlice S16x1024 ![0, 1] · slices_S16x320000_S16x1024_0_1),
    TRef.unary main_call0.v1 main_call0.call0.v0 (Host.reverse [1]),
    TRef.binary main_call0.call0.v0 (.of main_arg0 : TRef sig ⟨S16x320000, .f32⟩) main_call0.v3 (fun a b => concatenate S16x321024 1 [⟨S16x1024, a⟩, ⟨S16x320000, b⟩] concatenates_S16x1024_S16x320000_S16x321024_d1),
    TRef.unary main_call0.v3 main_call0.v4 (extractStridedSlice S16x1 ![0, 321023] · slices_S16x321024_S16x1_0_321023),
    TRef.unary main_call0.v3 main_call0.v5 (extractStridedSlice S16x1024 ![0, 319999] · slices_S16x321024_S16x1024_0_319999),
    TRef.unary main_call0.v5 main_call0.call1.v0 (Host.reverse [1]),
    TRef.binary main_call0.v3 main_call0.call1.v0 main_call0.v7 (fun a b => concatenate S16x322048 1 [⟨S16x321024, a⟩, ⟨S16x1024, b⟩] concatenates_S16x321024_S16x1024_S16x322048_d1),
    nullary main_v1 (iotaInDim S626 32 0),
    unary main_v1 main_v2 (broadcastInDim S626x1 ![0] bcast_S626_S626x1_0 : (⟨S626, .i32⟩ : BufTy).Contents (Elt F) → (⟨S626x1, .i32⟩ : BufTy).Contents (Elt F)),
    nullary main_c_0 (constantI S_ 32 512#32),
    unary main_c_0 main_v3 (broadcastInDim S626x1 ![] bcast_S_S626x1 : (⟨S_, .i32⟩ : BufTy).Contents (Elt F) → (⟨S626x1, .i32⟩ : BufTy).Contents (Elt F)),
    binary main_v2 main_v3 main_v4 (muli : (⟨S626x1, .i32⟩ : BufTy).Contents (Elt F) → (⟨S626x1, .i32⟩ : BufTy).Contents (Elt F) → (⟨S626x1, .i32⟩ : BufTy).Contents (Elt F)),
    nullary main_v5 (iotaInDim S2048 32 0),
    unary main_v5 main_v6 (broadcastInDim S1x2048 ![1] bcast_S2048_S1x2048_1 : (⟨S2048, .i32⟩ : BufTy).Contents (Elt F) → (⟨S1x2048, .i32⟩ : BufTy).Contents (Elt F)),
    unary main_v4 main_v7 (broadcastInDim S626x2048 ![0, 1] bcast_S626x1_S626x2048_0_1 : (⟨S626x1, .i32⟩ : BufTy).Contents (Elt F) → (⟨S626x2048, .i32⟩ : BufTy).Contents (Elt F)),
    unary main_v6 main_v8 (broadcastInDim S626x2048 ![0, 1] bcast_S1x2048_S626x2048_0_1 : (⟨S1x2048, .i32⟩ : BufTy).Contents (Elt F) → (⟨S626x2048, .i32⟩ : BufTy).Contents (Elt F)),
    binary main_v7 main_v8 main_v9 (addi : (⟨S626x2048, .i32⟩ : BufTy).Contents (Elt F) → (⟨S626x2048, .i32⟩ : BufTy).Contents (Elt F) → (⟨S626x2048, .i32⟩ : BufTy).Contents (Elt F)),
    nullary main_c_1 (constantI S_ 32 0#32),
    unary main_c_1 main_v10 (broadcastInDim S626x2048 ![] bcast_S_S626x2048 : (⟨S_, .i32⟩ : BufTy).Contents (Elt F) → (⟨S626x2048, .i32⟩ : BufTy).Contents (Elt F)),
    binary main_v9 main_v10 main_v11 (cmpi .slt : (⟨S626x2048, .i32⟩ : BufTy).Contents (Elt F) → (⟨S626x2048, .i32⟩ : BufTy).Contents (Elt F) → (⟨S626x2048, .i1⟩ : BufTy).Contents (Elt F)),
    nullary main_c_2 (constantI S_ 32 322048#32),
    unary main_c_2 main_v12 (broadcastInDim S626x2048 ![] bcast_S_S626x2048 : (⟨S_, .i32⟩ : BufTy).Contents (Elt F) → (⟨S626x2048, .i32⟩ : BufTy).Contents (Elt F)),
    binary main_v9 main_v12 main_v13 (addi : (⟨S626x2048, .i32⟩ : BufTy).Contents (Elt F) → (⟨S626x2048, .i32⟩ : BufTy).Contents (Elt F) → (⟨S626x2048, .i32⟩ : BufTy).Contents (Elt F)),
    ternary main_v11 main_v13 main_v9 main_v14 (select : (⟨S626x2048, .i1⟩ : BufTy).Contents (Elt F) → (⟨S626x2048, .i32⟩ : BufTy).Contents (Elt F) → (⟨S626x2048, .i32⟩ : BufTy).Contents (Elt F) → (⟨S626x2048, .i32⟩ : BufTy).Contents (Elt F)),
    unary main_v14 main_v15 (broadcastInDim S626x2048x1 ![0, 1] bcast_S626x2048_S626x2048x1_0_1 : (⟨S626x2048, .i32⟩ : BufTy).Contents (Elt F) → (⟨S626x2048x1, .i32⟩ : BufTy).Contents (Elt F)),
    binary main_v0 main_v15 main_v16 ((fun x i => Host.gather gather_S16x322048_S626x2048x1_S16x626x2048_0_1_n_n_1_2_161 x i) : (⟨S16x322048, .f32⟩ : BufTy).Contents (Elt F) → (⟨S626x2048x1, .i32⟩ : BufTy).Contents (Elt F) → (⟨S16x626x2048, .f32⟩ : BufTy).Contents (Elt F)),
    binary main_v16 main_arg1 main_v17 ((fun l r => Host.dotGeneral dot_S16x626x2048_S1025x2048_S16x626x1025_2_1_01_0_n_n none l r) : (⟨S16x626x2048, .f32⟩ : BufTy).Contents (Elt F) → (⟨S1025x2048, .f32⟩ : BufTy).Contents (Elt F) → (⟨S16x626x1025, .f32⟩ : BufTy).Contents (Elt F)),
    binary main_v16 main_arg2 main_v18 ((fun l r => Host.dotGeneral dot_S16x626x2048_S1025x2048_S16x626x1025_2_1_01_0_n_n none l r) : (⟨S16x626x2048, .f32⟩ : BufTy).Contents (Elt F) → (⟨S1025x2048, .f32⟩ : BufTy).Contents (Elt F) → (⟨S16x626x1025, .f32⟩ : BufTy).Contents (Elt F)),
    unary main_v17 main_v19 (broadcastInDim S16x1x626x1025 ![0, 2, 3] bcast_S16x626x1025_S16x1x626x1025_0_2_3 : (⟨S16x626x1025, .f32⟩ : BufTy).Contents (Elt F) → (⟨S16x1x626x1025, .f32⟩ : BufTy).Contents (Elt F)),
    unary main_v18 main_v20 (broadcastInDim S16x1x626x1025 ![0, 2, 3] bcast_S16x626x1025_S16x1x626x1025_0_2_3 : (⟨S16x626x1025, .f32⟩ : BufTy).Contents (Elt F) → (⟨S16x1x626x1025, .f32⟩ : BufTy).Contents (Elt F)) ]

-- thirty-two binds re-associated: the rewrite under the chain recurses once per statement
set_option maxRecDepth 2048 in
/-- @main is that straight line: the two functions' definitions unfolded at their calls and the
    records at their fields, both sides are one chain of steps once sequencing is reassociated. -/
theorem main_eq (c : Dev nD) : main (F := F) c = seq ops := by
  simp only [main, fn_pad.body, fn_flip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub ..,
    unary_bufs_sub .., unary_bufs_sub .., unary_bufs_sub .., binary_bufs_sub .., unary_bufs_sub .., unary_bufs_sub ..,
    unary_bufs_sub .., binary_bufs_sub ..,
    nullary_bufs_sub .., unary_bufs_sub .., nullary_bufs_sub .., unary_bufs_sub .., binary_bufs_sub .., nullary_bufs_sub ..,
    unary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub ..⟩

attribute [local irreducible] Host.gather Host.reverse concatenate extractStridedSlice broadcastInDim in
set_option maxRecDepth 8192 in
/-- On the device, for any float values, from any memory with zero counters: every weakly fair execution of
    @main terminates with the two results at the spectrum halves of the signal against the two weight matrices,
    and the three arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = spectrum (m ((c.tc : Thread nD τ).loc main_arg0)) (m ((c.tc : Thread nD τ).loc main_arg1))
      ∧ r.2.mem ((c.tc : Thread nD τ).loc main_v20) = spectrum (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v19).trans (by after_results_simp; rfl),
      (h c main_v20).trans (by after_results_simp; rfl),
      (h c main_arg0).trans (by after_results_simp),
      (h c main_arg1).trans (by after_results_simp),
      (h c main_arg2).trans (by after_results_simp)⟩)
    (run_seq scopedRefs_eq scopedSems_eq defs main (fun _ => ops) main_eq (fun _ => ops_sub) m ρ)

/-- The contraction record of the two dot_generals. -/
abbrev dotD : DotDims S16x626x2048 S1025x2048 S16x626x1025 := dot_S16x626x2048_S1025x2048_S16x626x1025_2_1_01_0_n_n

/-- It contracts one axis … -/
theorem dotD_rank : dotD.contr.rank = 1 := rfl
/-- … of 2048 samples. -/
theorem dotD_size : dotD.contr.size ⟨0, by rw [dotD_rank]; exact Nat.one_pos⟩ = 2048 := rfl

/-- at the exact instance an entry of a spectrum half is the plain sum over the 2048 samples of a frame -/
theorem spectrum_apply (x : FVec Ideal S16x320000 .f32) (w : FVec Ideal S1025x2048 .f32) (b : Fin 16) (u : Fin 1) (t : Fin 626) (r : Fin 1025) :
    spectrum (F := Ideal) x w (ValueIdx.ix4 b u t r) = ∑ k : Fin 2048, frames (F := Ideal) x (ValueIdx.ix3 b t k) * w (ValueIdx.ix2 r k) := by
  unfold spectrum
  -- the broadcast only adds the unit axis: entry (b, u, t, r) is the contraction's entry (b, t, r)
  refine (broadcastInDim_apply ![0, 2, 3] bcast_S16x626x1025_S16x1x626x1025_0_2_3 _ (ValueIdx.ix4 b u t r) (ValueIdx.ix3 b t r) ?_).trans ?_
  · intro a
    match a with
    | ⟨0, _⟩ => rfl
    | ⟨1, _⟩ => rfl
    | ⟨2, _⟩ => rfl
  -- the contraction at the exact instance is the sum over its contraction index
  simp only [Host.dotGeneral]
  rw [Ideal.dotGeneral_apply]
  -- whose one coordinate is the sample number
  rw [← Equiv.sum_comp (ValueIdx.contrEquiv1 dotD 2048 dotD_rank dotD_size).symm]
  refine Finset.sum_congr rfl fun k _ => ?_
  refine congrArg₂ (· * ·) (congrArg _ (funext fun a => Fin.ext ?_)) (congrArg _ (funext fun a => Fin.ext ?_))
  · -- the frame's coordinates: batch and frame number from the output index, the sample from the contraction index
    match a with
    | ⟨0, _⟩ => rfl
    | ⟨1, _⟩ => rfl
    | ⟨2, _⟩ =>
      exact (dotD.lhsIdx_val_of_single (cl := 2) rfl _ _).trans
        (ValueIdx.contrEquiv1_symm_val dotD 2048 dotD_rank dotD_size k)
  · -- the weight's coordinates: the row from the output index, the sample from the contraction index
    match a with
    | ⟨0, _⟩ => rfl
    | ⟨1, _⟩ =>
      exact (dotD.rhsIdx_val_of_single (cr := 1) rfl _ _).trans
        (ValueIdx.contrEquiv1_symm_val dotD 2048 dotD_rank dotD_size k)

end Cert.ReferenceIdeal.RefRun

end
-- ==== Proof.lean ====
/-
  The short-time Fourier transform as one matrix product, against its einsum reference.
  Both programs reflect-pad the signal and gather the same 626 × 2048 overlapping frames of each of the 16 signals.
  The reference contracts every frame with the rows of the two weight matrices (two dot_generals over the sample axis).
  The kernel program lays the frames out as the rows of one matrix, sets the two transposed weight matrices side by
  side as its columns, pads both to whole blocks, multiplies them block of 512 rows by block on a grid of twenty
  points, and cuts the real and the imaginary half back out of the product.
  At the exact instance both results are, entry by entry, the same sum over the 2048 samples of a frame of
  frame(b, t, k) · weight(r, k): the changes of float format are the identity, the zero accumulator adds nothing, and
  the padding rows and columns never reach a result. No property of the inputs is used.
  The three frames are the generated frame runs (the reference's is its run with the results dropped); the ideal pass
  rewrote nothing, so there is nothing to preserve.
-/
import proofs.«179482_j29789893165288_2_alg».proof.Defs
import proofs.«179482_j29789893165288_2_alg».proof.Proof.Gen.Kernel
import proofs.«179482_j29789893165288_2_alg».proof.Proof.Gen.Kernel.Frame
import proofs.«179482_j29789893165288_2_alg».proof.Proof.Gen.KernelIdeal
import proofs.«179482_j29789893165288_2_alg».proof.Proof.Gen.KernelIdeal.Frame
import proofs.«179482_j29789893165288_2_alg».proof.Proof.Gen.ReferenceIdeal
import proofs.«179482_j29789893165288_2_alg».proof.Proof.Gen.Pre_finite_inputs
import proofs.«179482_j29789893165288_2_alg».proof.Proof.KerRun
import proofs.«179482_j29789893165288_2_alg».proof.Proof.KerIndex
import proofs.«179482_j29789893165288_2_alg».proof.Proof.RefRun
import Idealize.ShloMosaic.Adequacy
import Idealize.ShloMosaic.Init

noncomputable section

namespace Cert.Proof

open Idealize.ShloMosaic Idealize.ShloMosaic.ValueIdx Idealize.SL.Sem

/-- The two programs gather the same frames: their operations up to the gather are the same operations. -/
theorem frames_agree (x : FVec Ideal Cert.KernelIdeal.S16x320000 .f32) :
    Cert.KernelIdeal.KerValue.frames (F := Ideal) x = Cert.ReferenceIdeal.RefRun.frames (F := Ideal) x := rfl

/-- The reference's first result is the kernel program's: entry by entry both are a frame contracted with a row of
    the first weight matrix. -/
theorem real_agree (x : FVec Ideal Cert.KernelIdeal.S16x320000 .f32) (w1 w2 : FVec Ideal Cert.KernelIdeal.S1025x2048 .f32) :
    Cert.ReferenceIdeal.RefRun.spectrum (F := Ideal) x w1
      = Cert.KernelIdeal.KerValue.realPart (Cert.KernelIdeal.KerValue.matProd
          (Cert.KernelIdeal.KerValue.leftMatrix (F := Ideal) x) (Cert.KernelIdeal.KerValue.rightMatrix (F := Ideal) w1 w2)) := by
  funext i
  obtain ⟨b, u, t, r, rfl⟩ : ∃ (b : Fin 16) (u : Fin 1) (t : Fin 626) (r : Fin 1025), i = ix4 b u t r :=
    ⟨i 0, i 1, i 2, i 3, eq_ix4 i⟩
  rw [Cert.ReferenceIdeal.RefRun.spectrum_apply, Cert.KernelIdeal.KerValue.real_entry, frames_agree]

/-- And the second: the same frame contracted with a row of the second weight matrix. -/
theorem imag_agree (x : FVec Ideal Cert.KernelIdeal.S16x320000 .f32) (w1 w2 : FVec Ideal Cert.KernelIdeal.S1025x2048 .f32) :
    Cert.ReferenceIdeal.RefRun.spectrum (F := Ideal) x w2
      = Cert.KernelIdeal.KerValue.imagPart (Cert.KernelIdeal.KerValue.matProd
          (Cert.KernelIdeal.KerValue.leftMatrix (F := Ideal) x) (Cert.KernelIdeal.KerValue.rightMatrix (F := Ideal) w1 w2)) := by
  funext i
  obtain ⟨b, u, t, r, rfl⟩ : ∃ (b : Fin 16) (u : Fin 1) (t : Fin 626) (r : Fin 1025), i = ix4 b u t r :=
    ⟨i 0, i 1, i 2, i 3, eq_ix4 i⟩
  rw [Cert.ReferenceIdeal.RefRun.spectrum_apply, Cert.KernelIdeal.KerValue.imag_entry, frames_agree]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RefRun.run (F := Ideal) m ρ)

/-- From memories that agree on the arguments both programs run to the same two results. -/
theorem algebraic : Cert.algebraic_KernelIdeal_ReferenceIdeal := by
  intro m ρ m' ρ' _ hagree
  refine ⟨_, _, Cert.KernelIdeal.KerValue.run m ρ, ?_⟩
  refine (θ_run Cert.ReferenceIdeal.defs _ _).mono (fun _ h c => ?_) (Cert.ReferenceIdeal.RefRun.run (F := Ideal) m' ρ')
  obtain ⟨h19, h20, ha0, ha1, ha2⟩ := h c
  obtain ⟨e0, e1, e2⟩ := hagree c
  refine ⟨h19.trans ?_, h20.trans ?_, ha0, ha1, ha2⟩
  · rw [e0, e1]; exact real_agree _ _ _
  · rw [e0, e2]; exact imag_agree _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
